-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S8x4096x4096 : Shape := ⟨3, ![8, 4096, 4096]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S8x256x64x64 .f32) (main_arg1 : FVec F S8x4096x4096 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  main_v8
-- ==== Kernel.lean ====
abbrev S8x256x64x64 : Shape := ⟨4, ![8, 256, 64, 64]⟩
abbrev S8x4096x4096 : Shape := ⟨3, ![8, 4096, 4096]⟩
abbrev S8x256x4096 : Shape := ⟨3, ![8, 256, 4096]⟩
abbrev S1x256x1024 : Shape := ⟨3, ![1, 256, 1024]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x256x64x64, .f32⟩
  | .hbm, ⟨1, _⟩ => ⟨S8x4096x4096, .f32⟩
  | .hbm, ⟨2, _⟩ => ⟨S8x256x4096, .f32⟩
  | .hbm, ⟨3, _⟩ => ⟨S8x256x4096, .f32⟩
  | .hbm, ⟨4, _⟩ => ⟨S8x256x64x64, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S8x256x64x64_S8x256x4096 : S8x256x64x64.ShapeCasts S8x256x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S256x1024_S1x256x1024 : S256x1024.ShapeCasts S1x256x1024
  shapeCasts_S8x256x4096_S8x256x64x64 : S8x256x4096.ShapeCasts S8x256x64x64
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x256x4096.size a
  hwx0_0 : ∀ i : grid0.Coords, EltTy.bits .f32 = 32 ∨ (Rect.block (s := S8x256x4096) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x4096.size a
  hwx0_1 : ∀ i : grid0.Coords, EltTy.bits .f32 = 32 ∨ (Rect.block (s := S8x4096x4096) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x256x4096.size a
  hwx0_2 : ∀ i : grid0.Coords, EltTy.bits .f32 = 32 ∨ (Rect.block (s := S8x256x4096) S1x256x1024.size (cc0_transform_2 i) (hinb0_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x256x64x64 : Shape := ⟨4, ![8, 256, 64, 64]⟩
abbrev S8x4096x4096 : Shape := ⟨3, ![8, 4096, 4096]⟩
abbrev S8x256x4096 : Shape := ⟨3, ![8, 256, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x4096x4096, .f32⟩
  | .hbm, ⟨2, _⟩ => ⟨S8x256x4096, .f32⟩
  | .hbm, ⟨3, _⟩ => ⟨S8x256x4096, .f32⟩
  | .hbm, ⟨4, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S8x256x64x64_S8x256x4096 : S8x256x64x64.ShapeCasts S8x256x4096
  shapeCasts_S8x256x4096_S8x256x64x64 : S8x256x4096.ShapeCasts S8x256x64x64
  dot_S8x256x4096_S8x4096x4096_S8x256x4096_2_1_1_2_0_0_wf : DotDims.WF S8x256x4096 S8x4096x4096 S8x256x4096 [2] [1] [1] [2] [0] [0]

variable [Facts₀]

def dot_S8x256x4096_S8x4096x4096_S8x256x4096_2_1_1_2_0_0 : DotDims S8x256x4096 S8x4096x4096 S8x256x4096 where
  lhsContracting := [2]
  rhsContracting := [1]
  lhsNonContracting := [1]
  rhsNonContracting := [2]
  lhsBatch := [0]
  rhsBatch := [0]
  wf := dot_S8x256x4096_S8x4096x4096_S8x256x4096_2_1_1_2_0_0_wf

class Facts : Prop extends Facts₀ where

variable [Facts]
-- ==== Proof.BlockedSum.lean ====
/-
  A sum over 4096 contraction coordinates taken 1024 at a time, and the batched matrix product it computes.

  The product of a batch of eight [256, 4096] matrices with eight [4096, 4096] matrices is, entry by entry, a sum of
  4096 products of extended reals. A kernel that walks the contraction axis in four stretches of 1024 coordinates adds,
  stretch after stretch, the sum of that stretch's 1024 products to what it has so far. What it has after `j` stretches
  is the sum of the first `1024 * j` products (`upTo`): nothing at the start, all of them after four. Addition on the
  extended reals is commutative and associative, so no finiteness of the summands is needed anywhere.
-/
import Idealize.ShloMosaic.PureOps.Ideal
import Idealize.ShloMosaic.Lib.ValueIdx

noncomputable section

open scoped BigOperators

namespace Cert.BlockedSum

open Idealize.ShloMosaic Idealize.ShloMosaic.ValueIdx

/-- Summand `n` of a sum of 4096 terms; beyond the last term, nothing. -/
def term (f : Fin 4096 → EReal) (n : ℕ) : EReal := if h : n < 4096 then f ⟨n, h⟩ else 0

/-- The sum of the first `1024 * j` terms. -/
def upTo (f : Fin 4096 → EReal) (j : ℕ) : EReal := ∑ n ∈ Finset.range (1024 * j), term f n

/-- Before the first stretch the sum is empty. -/
theorem upTo_zero (f : Fin 4096 → EReal) : upTo f 0 = 0 := by
  unfold upTo
  rw [Nat.mul_zero, Finset.range_zero, Finset.sum_empty]

/-- One more stretch adds that stretch's 1024 terms. -/
theorem upTo_succ (f : Fin 4096 → EReal) (j : ℕ) (hj : j < 4) :
    upTo f (j + 1) = upTo f j + ∑ kk : Fin 1024, f ⟨1024 * j + kk.val, by have := kk.isLt; omega⟩ := by
  unfold upTo
  rw [show 1024 * (j + 1) = 1024 * j + 1024 from by ring, Finset.sum_range_add]
  refine congrArg (_ + ·) ?_
  rw [Finset.sum_range]
  refine Finset.sum_congr rfl fun kk _ => ?_
  unfold term
  rw [dif_pos (by have := kk.isLt; omega)]

/-- After four stretches the sum is the whole one. -/
theorem upTo_four (f : Fin 4096 → EReal) : upTo f 4 = ∑ k : Fin 4096, f k := by
  unfold upTo
  rw [show 1024 * 4 = 4096 from rfl, Finset.sum_range]
  exact Finset.sum_congr rfl fun k _ => by unfold term; rw [dif_pos k.isLt]

/-- One step of the accumulation: what was the sum of the first `j` stretches, plus the products of stretch `j`,
    is the sum of the first `j + 1` stretches. -/
theorem step (f : Fin 4096 → EReal) (j : ℕ) (hj : j < 4) (acc : EReal) (a b : Fin 1024 → EReal)
    (hacc : acc = upTo f j)
    (hab : ∀ kk : Fin 1024, a kk * b kk = f ⟨1024 * j + kk.val, by have := kk.isLt; omega⟩) :
    acc + ∑ kk : Fin 1024, a kk * b kk = upTo f (j + 1) := by
  rw [upTo_succ f j hj, hacc]
  exact congrArg (upTo f j + ·) (Finset.sum_congr rfl fun kk _ => hab kk)

/-- The products summed at entry `(g, r, c)` of the batched product: coordinate `k` of row `r` of matrix `g` on the
    left times coordinate `k` of column `c` of matrix `g` on the right. -/
def summand (X : (⟨3, ![8, 256, 4096]⟩ : Shape).Idx → EReal) (W : (⟨3, ![8, 4096, 4096]⟩ : Shape).Idx → EReal)
    (g : Fin 8) (r : Fin 256) (c : Fin 4096) : Fin 4096 → EReal :=
  fun k => X (ix3 g r k) * W (ix3 g k c)

/-- The batched product, entry by entry. -/
def product (X : (⟨3, ![8, 256, 4096]⟩ : Shape).Idx → EReal) (W : (⟨3, ![8, 4096, 4096]⟩ : Shape).Idx → EReal) :
    (⟨3, ![8, 256, 4096]⟩ : Shape).Idx → EReal :=
  fun i => ∑ k : Fin 4096, summand X W (i 0) (i 1) (i 2) k

end Cert.BlockedSum

end
-- ==== Proof.ReferenceProduct.lean ====
/-
  The reference computes the batched product.

  The reference reshapes `x` to `[8, 256, 4096]`, contracts its last axis with the middle axis of the second argument
  batch by batch, and reshapes the result back. Read at an entry `(g, r, c)` at the ideal values the middle stage is
  the sum over `k` of `x2 (g, r, k) * w (g, k, c)`: the batched product of the reshaped `x` and `w`.
-/
import proofs.«161428_j22574348108404_1_alg».proof.Proof.Gen.ReferenceIdeal.Read
import proofs.«161428_j22574348108404_1_alg».proof.Proof.BlockedSum

set_option maxRecDepth 16384

noncomputable section

open Idealize.ShloMosaic Idealize.ShloMosaic.TcCoe Idealize.SL.Sem
open Idealize.ShloMosaic.Pipeline (Dat)

open scoped BigOperators

namespace Cert.ReferenceIdeal.Product
open Cert.ReferenceIdeal Cert.ReferenceIdeal.Gen Cert.ReferenceIdeal.Read Idealize.ShloMosaic.ValueIdx

/-- The contraction stage is the batched product of the reshaped first argument and the second. -/
theorem dot_stage (x0 : (⟨S8x256x64x64, .f32⟩ : BufTy).Contents (Elt Ideal)) (x1 : (⟨S8x4096x4096, .f32⟩ : BufTy).Contents (Elt Ideal)) :
    val_main_v1 (F := Ideal) x0 x1 = Cert.BlockedSum.product (val_main_v0 (F := Ideal) x0) x1 := by
  funext i
  rw [val_main_v1_apply]
  unfold Cert.BlockedSum.product Cert.BlockedSum.summand
  refine Finset.sum_congr rfl fun k _ => ?_
  have el : lidx_main_v1 i k = ix3 (i 0) (i 1) k :=
    funext fun a => by match a with | ⟨0, _⟩ => rfl | ⟨1, _⟩ => rfl | ⟨2, _⟩ => rfl
  have er : ridx_main_v1 i k = ix3 (i 0) k (i 2) :=
    funext fun a => by match a with | ⟨0, _⟩ => rfl | ⟨1, _⟩ => rfl | ⟨2, _⟩ => rfl
  rw [el, er]
  rfl

/-- So the reference's result is that product reshaped to `[8, 256, 64, 64]`. -/
theorem result (x0 : (⟨S8x256x64x64, .f32⟩ : BufTy).Contents (Elt Ideal)) (x1 : (⟨S8x4096x4096, .f32⟩ : BufTy).Contents (Elt Ideal)) :
    val_main_v2 (F := Ideal) x0 x1
      = shapeCast S8x256x64x64 (Cert.BlockedSum.product (shapeCast S8x256x4096 x0 shapeCasts_S8x256x64x64_S8x256x4096) x1)
          shapeCasts_S8x256x4096_S8x256x64x64 := by
  unfold val_main_v2
  rw [dot_stage]
  rfl

end Cert.ReferenceIdeal.Product

end
-- ==== Proof.AccumulatorPieces.lean ====
/-
  What one step of the body leaves behind, as payload terms.

  The body runs in one of three ways, by the position `k` of the point on the contraction axis of the grid. At
  `k = 0` it stores the zero block into the accumulator, reads it back, and stores the accumulator plus the product of
  the two input blocks. At `k = 1, 2` it stores the accumulator it finds plus that product. At `k = 3` it does the same
  and then copies the accumulator into the output block. Each statement below reads the stores the run found back as
  one term over the body's loads; they hold at every float instance.
-/
import proofs.«161428_j22574348108404_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first stretch of a contraction the body clears the accumulator and then adds the stretch's product to the
    cleared accumulator it reads back: it leaves the accumulating payload over the zero block. -/
theorem scratch_first (c : Dev nD) (i : grid0.Coords) (a3 : Memref sig .tc .vmem S1x256x1024 .f32) (h3 : a3.IsWhole)
    (a4 : Memref sig .tc .vmem S1x1024x1024 .f32) (h4 : a4.IsWhole) (a5 : Memref sig .tc .vmem S1x256x1024 .f32) (h5 : a5.IsWhole)
    (a6 : Memref sig .tc .vmem S256x1024 .f32) (h6 : a6.IsWhole) (hc0 : cond0_0 i) (hc1 : ¬cond0_1 i)
    (x0 : Vec F S1x256x1024 .f32) (x1 : Vec F S1x1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S256x1024) hz2, View.readCov_unit_zero (S := S256x1024) _ hz2]
  simp only [View.readAt_eq_ld, h3.read_unread, h4.read_unread, h6.read_unread, View.ld_unit_zero (S := S1x256x1024) hz3,
    View.ld_unit_zero (S := S1x1024x1024) hz3, View.ld_unit_zero (S := S256x1024) hz2]

/-- At a middle stretch the body adds the stretch's product to the accumulator `xs0` the stretch before left. -/
theorem scratch_middle (c : Dev nD) (i : grid0.Coords) (a3 : Memref sig .tc .vmem S1x256x1024 .f32) (h3 : a3.IsWhole)
    (a4 : Memref sig .tc .vmem S1x1024x1024 .f32) (h4 : a4.IsWhole) (a5 : Memref sig .tc .vmem S1x256x1024 .f32) (h5 : a5.IsWhole)
    (a6 : Memref sig .tc .vmem S256x1024 .f32) (h6 : a6.IsWhole) (hc0 : ¬cond0_0 i) (hc1 : ¬cond0_1 i)
    (x0 : Vec F S1x256x1024 .f32) (x1 : Vec F S1x1024x1024 .f32) (xs0 : Vec F S256x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz2]
  simp only [View.readAt_eq_ld, h3.read_unread, h4.read_unread, h6.read_unread, View.ld_unit_zero (S := S1x256x1024) hz3,
    View.ld_unit_zero (S := S1x1024x1024) hz3, View.ld_unit_zero (S := S256x1024) hz2]

/-- At the last stretch the accumulator gets the same sum, -/
theorem scratch_last (c : Dev nD) (i : grid0.Coords) (a3 : Memref sig .tc .vmem S1x256x1024 .f32) (h3 : a3.IsWhole)
    (a4 : Memref sig .tc .vmem S1x1024x1024 .f32) (h4 : a4.IsWhole) (a5 : Memref sig .tc .vmem S1x256x1024 .f32) (h5 : a5.IsWhole)
    (a6 : Memref sig .tc .vmem S256x1024 .f32) (h6 : a6.IsWhole) (hc0 : ¬cond0_0 i) (hc1 : cond0_1 i)
    (x0 : Vec F S1x256x1024 .f32) (x1 : Vec F S1x1024x1024 .f32) (xs0 : Vec F S256x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz2]
  simp only [View.readAt_eq_ld, h3.read_unread, h4.read_unread, h6.read_unread, View.ld_unit_zero (S := S1x256x1024) hz3,
    View.ld_unit_zero (S := S1x1024x1024) hz3, View.ld_unit_zero (S := S256x1024) hz2]

/-- and the output block is the accumulator just written, with a leading unit axis. -/
theorem out_last (c : Dev nD) (i : grid0.Coords) (a3 : Memref sig .tc .vmem S1x256x1024 .f32) (h3 : a3.IsWhole)
    (a4 : Memref sig .tc .vmem S1x1024x1024 .f32) (h4 : a4.IsWhole) (a5 : Memref sig .tc .vmem S1x256x1024 .f32) (h5 : a5.IsWhole)
    (a6 : Memref sig .tc .vmem S256x1024 .f32) (h6 : a6.IsWhole) (hc0 : ¬cond0_0 i) (hc1 : cond0_1 i)
    (x0 : Vec F S1x256x1024 .f32) (x1 : Vec F S1x1024x1024 .f32) (xs0 : Vec F S256x1024 .f32) :
    out0_C_2 c i a3 h3 a4 h4 a5 h5 a6 h6 hc0 hc1 x0 x1 xs0 = k0_pay3 (k0_pay2 x0 x1 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz3, View.readCov_unit_zero (S := S256x1024) _ hz2]
  simp only [View.readAt_eq_ld, h3.read_unread, h4.read_unread, h6.read_unread, View.ld_unit_zero (S := S1x256x1024) hz3,
    View.ld_unit_zero (S := S1x1024x1024) hz3, View.ld_unit_zero (S := S256x1024) hz2]

end Cert.KernelIdeal.Pieces

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.StretchPayload.lean ====
/-
  The body's payloads read at an entry, over the extended reals.

  With exact arithmetic the narrowing of both operands to bf16 changes nothing, the matrix unit's product into a zero
  accumulator is the plain sum of 1024 products, and the reshapes between `[1, a, b]` and `[a, b]` only rename an
  entry. So at entry `(p, q)` the accumulating payload is the old accumulator's entry plus the sum over the stretch's
  1024 coordinates `kk` of `left (0, p, kk) * right (0, kk, q)`; the clearing payload is zero; the output payload is
  the accumulator's entry.
-/
import proofs.«161428_j22574348108404_1_alg».proof.Proof.Gen.KernelIdeal.Skeleton
import proofs.«161428_j22574348108404_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

open scoped BigOperators

namespace Cert.KernelIdeal.Payload
open Cert.KernelIdeal Cert.KernelIdeal.Gen Idealize.ShloMosaic.ValueIdx

/-- The matrix unit's dimension numbers are those of a plain `256×1024` by `1024×1024` product. -/
theorem dot_plain : dot_S256x1024_S1024x1024_S256x1024_1_0_0_1_n_n = DotDims.plain 256 1024 1024 := rfl

/-- The block the first stretch clears the accumulator with is zero at every entry. -/
theorem clear_apply (j : S256x1024.Idx) : k0_pay1 (F := Ideal) j = 0 := by
  unfold k0_pay1
  rw [shapeCast_self]
  exact Ideal.ofBits_zero_f32

/-- One stretch: the accumulator's entry plus the stretch's 1024 products. -/
theorem accumulate_apply (v3 : Vec Ideal S1x256x1024 .f32) (v6 : Vec Ideal S1x1024x1024 .f32) (v9 : Vec Ideal S256x1024 .f32)
    (p : Fin 256) (q : Fin 1024) :
    k0_pay2 v3 v6 v9 (ix2 p q) = v9 (ix2 p q) + ∑ kk : Fin 1024, v3 (ix3 (0 : Fin 1) p kk) * v6 (ix3 (0 : Fin 1) kk q) := by
  unfold k0_pay2
  rw [shapeCast_self]
  refine congrArg (v9 (ix2 p q) + ·) ?_
  refine (PlainDot.matmul_zero_apply _ dot_plain none _ _ p q).trans ?_
  refine Finset.sum_congr rfl fun kk _ => ?_
  rw [truncf_apply, truncf_apply, shapeCast_1ab_ab_apply, shapeCast_1ab_ab_apply]

/-- The output block is the accumulator under a leading unit axis. -/
theorem output_apply (v18 : Vec Ideal S256x1024 .f32) (u : Fin 1) (p : Fin 256) (q : Fin 1024) :
    k0_pay3 v18 (ix3 u p q) = v18 (ix2 p q) := by
  unfold k0_pay3
  exact shapeCast_ab_1ab_apply _ _ u p q

end Cert.KernelIdeal.Payload

end
-- ==== Proof.Blocks.lean ====
/-
  Where the grid's points sit and which entries their blocks hold.

  The grid has 8 × 4 × 4 points; point number `t` is batch `t / 16`, column block `t / 4 % 4`, contraction stretch
  `t % 4`. At that point the left window holds rows `0 … 255` and contraction coordinates `1024 (t % 4) … + 1023` of
  batch `t / 16` of the reshaped first argument; the right window holds the same contraction coordinates and columns
  `1024 (t / 4 % 4) … + 1023` of that batch of the second argument; the output window is all rows and those columns
  of that batch of the result.
-/
import proofs.«161428_j22574348108404_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks
open Cert.KernelIdeal Cert.KernelIdeal.Gen Idealize.ShloMosaic.ValueIdx
variable {F : FTy → Type} [FloatOps F]
variable (m : (ℓ : Loc nD τ sig) → Buf (Elt F) ℓ)

/-- The three windows' block indices at point `t`, decided over the grid. -/
theorem index_maps : ∀ t : Fin cfg0.N,
    win0_0.index t (0 : Fin 3) = t.val / 16 ∧ win0_0.index t (1 : Fin 3) = 0 ∧ win0_0.index t (2 : Fin 3) = t.val % 4
    ∧ win0_1.index t (0 : Fin 3) = t.val / 16 ∧ win0_1.index t (1 : Fin 3) = t.val % 4 ∧ win0_1.index t (2 : Fin 3) = t.val / 4 % 4
    ∧ win0_2.index t (0 : Fin 3) = t.val / 16 ∧ win0_2.index t (1 : Fin 3) = 0 ∧ win0_2.index t (2 : Fin 3) = t.val / 4 % 4 :=
  (by decide +kernel : ∀ t : Fin grid0.N, _)

/-- The left block at a point of batch `g` and stretch `j`: entry `(0, p, kk)` is entry `(g, p, 1024 j + kk)` of the
    reshaped first argument. -/
theorem left_block (c : Dev nD) (t : Fin cfg0.N) (g : Fin 8) (j : ℕ) (hj : j < 4) (hg : t.val / 16 = g.val) (hk : t.val % 4 = j)
    (u : Fin 1) (p : Fin 256) (kk : Fin 1024) :
    (iblk m c 0 t : Vec F S1x256x1024 .f32) (ix3 u p kk)
      = V m c main_v0 (ix3 g p (⟨1024 * j + kk.val, by have := kk.isLt; omega⟩ : Fin 4096)) := by
  unfold iblk
  rw [View.read_apply]
  show V m c main_v0 _ = V m c main_v0 _
  refine congrArg (V m c main_v0) ?_
  obtain ⟨e0, e1, e2, -⟩ := index_maps t
  have hu := u.isLt
  funext a; apply Fin.ext
  match a with
  | ⟨0, _⟩ => show win0_0.index t (0 : Fin 3) * 1 + 1 * u.val = g.val; omega
  | ⟨1, _⟩ => show win0_0.index t (1 : Fin 3) * 256 + 1 * p.val = p.val; omega
  | ⟨2, _⟩ => show win0_0.index t (2 : Fin 3) * 1024 + 1 * kk.val = 1024 * j + kk.val; omega

/-- The right block at a point of batch `g`, stretch `j` and column block `cb`: entry `(0, kk, q)` is entry
    `(g, 1024 j + kk, 1024 cb + q)` of the second argument. -/
theorem right_block (c : Dev nD) (t : Fin cfg0.N) (g : Fin 8) (j : ℕ) (hj : j < 4) (cb : Fin 4) (hg : t.val / 16 = g.val)
    (hk : t.val % 4 = j) (hcb : t.val / 4 % 4 = cb.val) (u : Fin 1) (kk : Fin 1024) (q : Fin 1024) :
    (iblk m c 1 t : Vec F S1x1024x1024 .f32) (ix3 u kk q)
      = V m c main_arg1 (ix3 g (⟨1024 * j + kk.val, by have := kk.isLt; omega⟩ : Fin 4096)
          (⟨1024 * cb.val + q.val, by have := q.isLt; have := cb.isLt; omega⟩ : Fin 4096)) := by
  unfold iblk
  rw [View.read_apply]
  show V m c main_arg1 _ = V m c main_arg1 _
  refine congrArg (V m c main_arg1) ?_
  obtain ⟨-, -, -, e0, e1, e2, -⟩ := index_maps t
  have hu := u.isLt
  funext a; apply Fin.ext
  match a with
  | ⟨0, _⟩ => show win0_1.index t (0 : Fin 3) * 1 + 1 * u.val = g.val; omega
  | ⟨1, _⟩ => show win0_1.index t (1 : Fin 3) * 1024 + 1 * kk.val = 1024 * j + kk.val; omega
  | ⟨2, _⟩ => show win0_1.index t (2 : Fin 3) * 1024 + 1 * q.val = 1024 * cb.val + q.val; omega

end Cert.KernelIdeal.Blocks

end
-- ==== Proof.Accumulation.lean ====
/-
  What the accumulator holds after each point.

  Within one run of four consecutive points (one batch, one column block) the accumulator is cleared at the first and
  each point adds its stretch's products. So after point `n`, at entry `(p, q)`, it holds the sum of the first
  `1024 (n % 4 + 1)` products of entry `(g, p, 1024 cb + q)` of the batched product, `g = n / 16` the batch and
  `cb = n / 4 % 4` the column block: by induction on the point, the first point of a run starting from zero and every
  other from what the point before left.
-/
import proofs.«161428_j22574348108404_1_alg».proof.Proof.Gen.KernelIdeal.Frame
import proofs.«161428_j22574348108404_1_alg».proof.Proof.BlockedSum
import proofs.«161428_j22574348108404_1_alg».proof.Proof.AccumulatorPieces
import proofs.«161428_j22574348108404_1_alg».proof.Proof.StretchPayload
import proofs.«161428_j22574348108404_1_alg».proof.Proof.Blocks
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

open scoped BigOperators

namespace Cert.KernelIdeal.Accumulation
open Cert.KernelIdeal Cert.KernelIdeal.Gen Idealize.ShloMosaic.ValueIdx Cert.BlockedSum
variable (m : (ℓ : Loc nD τ sig) → Buf (Elt Ideal) ℓ)

/-- The products entry `(g, p, 1024 cb + q)` of the result sums, over the arrays as the region finds them. -/
abbrev products (c : Dev nD) (g : Fin 8) (cb : Fin 4) (p : Fin 256) (q : Fin 1024) : Fin 4096 → EReal :=
  summand (V m c main_v0) (V m c main_arg1) g p (⟨1024 * cb.val + q.val, by have := q.isLt; have := cb.isLt; omega⟩ : Fin 4096)

/-- One point's step at an entry, from the blocks the point holds and the accumulator it found. -/
theorem step_entry (c : Dev nD) (t : Fin cfg0.N) (g : Fin 8) (cb : Fin 4) (j : ℕ) (hj : j < 4) (hg : t.val / 16 = g.val)
    (hk : t.val % 4 = j) (hcb : t.val / 4 % 4 = cb.val) (xs : Vec Ideal S256x1024 .f32) (p : Fin 256) (q : Fin 1024)
    (hxs : xs (ix2 p q) = upTo (products m c g cb p q) j) :
    k0_pay2 (iblk m c 0 t) (iblk m c 1 t) xs (ix2 p q) = upTo (products m c g cb p q) (j + 1) := by
  refine (Payload.accumulate_apply (iblk m c 0 t) (iblk m c 1 t) xs p q).trans ?_
  refine step (products m c g cb p q) j hj _ _ _ hxs fun kk => ?_
  exact congrArg₂ (· * ·) (Blocks.left_block m c t g j hj hg hk 0 p kk) (Blocks.right_block m c t g j hj cb hg hk hcb 0 kk q)

/-- After point `n` the accumulator holds the sum of the first `n % 4 + 1` stretches. -/
theorem acc_eq (c : Dev nD) : ∀ (n : ℕ) (h : n < cfg0.N) (g : Fin 8) (cb : Fin 4) (p : Fin 256) (q : Fin 1024),
    n / 16 = g.val → n / 4 % 4 = cb.val →
    (outsAt0 m c n h).2 (ix2 p q) = upTo (products m c g cb p q) (n % 4 + 1)
  | 0, h, g, cb, p, q, hg, hcb => by
    rw [outsAt0_A m c ⟨0, h⟩ rfl (by show ¬0 % 4 = 3; decide)]
    dsimp only
    refine (congrFun (Pieces.scratch_first c _ _ _ _ _ _ _ _ _ _ _ (iblk m c 0 ⟨0, h⟩) (iblk m c 1 ⟨0, h⟩)) (ix2 p q)).trans ?_
    refine step_entry m c ⟨0, h⟩ g cb 0 (by decide) hg rfl hcb _ p q ?_
    rw [Payload.clear_apply, upTo_zero]
  | n + 1, h, g, cb, p, q, hg, hcb => by
    have hN : n + 1 < 128 := lt_of_lt_of_eq h (show cfg0.N = 128 from N_0)
    by_cases h0 : (n + 1) % 4 = 0
    · have h1 : ¬(n + 1) % 4 = 3 := by omega
      rw [outsAt0_A m c ⟨n + 1, h⟩ h0 h1]
      dsimp only
      refine (congrFun (Pieces.scratch_first c _ _ _ _ _ _ _ _ _ _ _ (iblk m c 0 ⟨n + 1, h⟩) (iblk m c 1 ⟨n + 1, h⟩)) (ix2 p q)).trans ?_
      rw [h0]
      refine step_entry m c ⟨n + 1, h⟩ g cb 0 (by decide) hg h0 hcb _ p q ?_
      rw [Payload.clear_apply, upTo_zero]
    · have ih : (outsAt0 m c n (Nat.lt_of_succ_lt h)).2 (ix2 p q) = upTo (products m c g cb p q) ((n + 1) % 4) :=
        (acc_eq c n (Nat.lt_of_succ_lt h) g cb p q (by omega) (by omega)).trans
          (congrArg (upTo (products m c g cb p q)) (by omega))
      by_cases h1 : (n + 1) % 4 = 3
      · rw [outsAt0_C m c ⟨n + 1, h⟩ h0 h1]
        dsimp only
        refine (congrFun (Pieces.scratch_last c _ _ _ _ _ _ _ _ _ _ _ (iblk m c 0 ⟨n + 1, h⟩) (iblk m c 1 ⟨n + 1, h⟩) _) (ix2 p q)).trans ?_
        exact step_entry m c ⟨n + 1, h⟩ g cb ((n + 1) % 4) (by omega) hg rfl hcb _ p q ih
      · rw [outsAt0_B m c ⟨n + 1, h⟩ h0 h1]
        dsimp only
        refine (congrFun (Pieces.scratch_middle c _ _ _ _ _ _ _ _ _ _ _ (iblk m c 0 ⟨n + 1, h⟩) (iblk m c 1 ⟨n + 1, h⟩) _) (ix2 p q)).trans ?_
        exact step_entry m c ⟨n + 1, h⟩ g cb ((n + 1) % 4) (by omega) hg rfl hcb _ p q ih

end Cert.KernelIdeal.Accumulation

end
-- ==== Proof.KernelProduct.lean ====
/-
  The kernel's result is the batched product, reshaped.

  Only the last point of each run of four writes its output block back, and by then the accumulator holds all four
  stretches: the whole sum of 4096 products. That block is rows `0 … 255` and columns `1024 cb … + 1023` of batch `g`
  of the batched product of the two arrays the region finds; the 32 such blocks tile the `[8, 256, 4096]` result, so the
  region leaves that product there. The array the region finds on the left is the first argument reshaped, and the
  line after the region reshapes the result to `[8, 256, 64, 64]`.
-/
import proofs.«161428_j22574348108404_1_alg».proof.Proof.Gen.KernelIdeal.Frame
import proofs.«161428_j22574348108404_1_alg».proof.Proof.BlockedSum
import proofs.«161428_j22574348108404_1_alg».proof.Proof.AccumulatorPieces
import proofs.«161428_j22574348108404_1_alg».proof.Proof.StretchPayload
import proofs.«161428_j22574348108404_1_alg».proof.Proof.Blocks
import proofs.«161428_j22574348108404_1_alg».proof.Proof.Accumulation
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

open scoped BigOperators

namespace Cert.KernelIdeal.Product
open Cert.KernelIdeal Cert.KernelIdeal.Gen Idealize.ShloMosaic.ValueIdx Cert.BlockedSum
variable (m : (ℓ : Loc nD τ sig) → Buf (Elt Ideal) ℓ) (ρ : Dev nD → PrngReg)

/-- The batched product of the two arrays as the region finds them. -/
abbrev regionProduct (c : Dev nD) : S8x256x4096.Idx → EReal := product (V m c main_v0) (V m c main_arg1)

/-- What a last-stretch point of batch `g` and column block `cb` puts at entry `y` of its output block, over an
    accumulator holding three stretches: entry `(g, y₁, 1024 cb + y₂)` of the product. -/
theorem last_entry (c : Dev nD) (t : Fin cfg0.N) (h3 : t.val % 4 = 3) (g : Fin 8) (cb : Fin 4) (hg : t.val / 16 = g.val)
    (hcb : t.val / 4 % 4 = cb.val) (xs : Vec Ideal S256x1024 .f32)
    (hxs : ∀ (p : Fin 256) (q : Fin 1024), xs (ix2 p q) = upTo (Accumulation.products m c g cb p q) 3)
    (y : S1x256x1024.Idx) :
    k0_pay3 (k0_pay2 (iblk m c 0 t) (iblk m c 1 t) xs) y
      = regionProduct m c (ix3 g (y 1) (⟨1024 * cb.val + (y 2).val, by have : (y 2).val < 1024 := (y 2).isLt; have := cb.isLt; omega⟩ : Fin 4096)) := by
  obtain ⟨u, p, q, rfl⟩ : ∃ (u : Fin 1) (p : Fin 256) (q : Fin 1024), y = ix3 u p q := ⟨y 0, y 1, y 2, eq_ix3 y⟩
  refine (Payload.output_apply _ u p q).trans ?_
  refine (Accumulation.step_entry m c t g cb 3 (by decide) hg h3 hcb xs p q (hxs p q)).trans ?_
  exact upTo_four _

/-- What a writing point writes back is its block of the product. -/
theorem flushed_eq (c : Dev nD) (t : Fin cfg0.N) (hf : (cfg0.win 2).flush t = true) :
    (dats m 0 c).flushed 2 t = ((cfg0.win 2).blk t).view.read (Elt Ideal) (regionProduct m c) := by
  have h3 : t.val % 4 = 3 := (flush0_2 t).mp hf
  have hN : t.val < 128 := lt_of_lt_of_eq t.isLt (show cfg0.N = 128 from N_0)
  have h0 : ¬t.val % 4 = 0 := by omega
  show (cfg0.win 2).cut (grid0.coords t) ((dats m 0 c).after 2 t) = _
  rw [after0_2, outsAt0_C m c t h0 h3]
  dsimp only
  funext y
  refine (congrFun (Pieces.out_last c _ _ _ _ _ _ _ _ _ _ _ (iblk m c 0 t) (iblk m c 1 t) _) y).trans ?_
  refine (last_entry m c t h3 ⟨t.val / 16, by omega⟩ ⟨t.val / 4 % 4, by omega⟩ rfl rfl _ (fun p q => ?_) y).trans ?_
  · exact (Accumulation.acc_eq m c (t.val - 1) _ _ _ p q (by dsimp only; omega) (by dsimp only; omega)).trans
      (congrArg _ (by omega))
  · rw [View.read_apply]
    refine congrArg (regionProduct m c) ?_
    obtain ⟨-, -, -, -, -, -, e0, e1, e2⟩ := Blocks.index_maps t
    have hy0 : (y 0).val < 1 := (y 0).isLt
    funext a; apply Fin.ext
    match a with
    | ⟨0, _⟩ => show t.val / 16 = win0_2.index t (0 : Fin 3) * 1 + 1 * (y 0).val; omega
    | ⟨1, _⟩ => show (y 1).val = win0_2.index t (1 : Fin 3) * 256 + 1 * (y 1).val; omega
    | ⟨2, _⟩ => show 1024 * (t.val / 4 % 4) + (y 2).val = win0_2.index t (2 : Fin 3) * 1024 + 1 * (y 2).val; omega

/-- An entry of the result is in point `t`'s output block iff each coordinate is in the block's range. -/
theorem mem_blk (t : Fin cfg0.N) (i : S8x256x4096.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v1).slice (win0_2.rect t)).set ↔ _
  rw [View.set_slice_whole, Rect.mem_set_unit]
  exact Iff.rfl

/-- Every entry `(g, r, col)` of the result is in the block the last point of batch `g`, column block `col / 1024` writes. -/
theorem cover (i : S8x256x4096.Idx) :
    ∃ t : Fin cfg0.N, (cfg0.win 2).flush t = true ∧ i ∈ ((cfg0.win 2).blk t).view.set := by
  have h0 : (i 0).val < 8 := (i 0).isLt
  have h1 : (i 1).val < 256 := (i 1).isLt
  have h2 : (i 2).val < 4096 := (i 2).isLt
  have hN : cfg0.N = 128 := N_0
  have ht : 16 * (i 0).val + 4 * ((i 2).val / 1024) + 3 < cfg0.N := by omega
  refine ⟨⟨_, ht⟩, (flush0_2 ⟨_, ht⟩).mpr (by dsimp only; omega), ?_⟩
  rw [mem_blk]
  obtain ⟨-, -, -, -, -, -, e0, e1, e2⟩ := Blocks.index_maps ⟨_, ht⟩
  dsimp only at e0 e1 e2
  intro a
  match a with
  | ⟨0, _⟩ =>
    show win0_2.index ⟨_, ht⟩ (0 : Fin 3) * 1 ≤ (i 0).val ∧ (i 0).val < win0_2.index ⟨_, ht⟩ (0 : Fin 3) * 1 + 1
    omega
  | ⟨1, _⟩ =>
    show win0_2.index ⟨_, ht⟩ (1 : Fin 3) * 256 ≤ (i 1).val ∧ (i 1).val < win0_2.index ⟨_, ht⟩ (1 : Fin 3) * 256 + 256
    omega
  | ⟨2, _⟩ =>
    show win0_2.index ⟨_, ht⟩ (2 : Fin 3) * 1024 ≤ (i 2).val ∧ (i 2).val < win0_2.index ⟨_, ht⟩ (2 : Fin 3) * 1024 + 1024
    omega

/-- So the region leaves the product in its result array. -/
theorem final (c : Dev nD) : (dats m 0 c).arrAt 2 cfg0.N = regionProduct m c :=
  (dats m 0 c).arrAt_eq_of_cover 2 (regionProduct m c) (flushed_eq m c) cover

/-- The left array the region finds is the first argument reshaped to `[8, 256, 4096]`. -/
theorem entry_left (c : Dev nD) :
    (V m c main_v0 : S8x256x4096.Idx → EReal)
      = shapeCast S8x256x4096 (m ((c : Thread nD τ).loc main_arg0)) shapeCasts_S8x256x64x64_S8x256x4096 := by
  show StableHlo.after hostOps0 (fun b => m (c, b)) (Proc.devRef .tc main_v0) = _
  after_results
  rfl

/-- The kernel's result as a function of its two arguments. -/
abbrev result (c : Dev nD) : Buf (Elt Ideal) ((c : Thread nD τ).loc main_v2) :=
  shapeCast S8x256x64x64
    (product (shapeCast S8x256x4096 (m ((c : Thread nD τ).loc main_arg0)) shapeCasts_S8x256x64x64_S8x256x4096)
      (m ((c : Thread nD τ).loc main_arg1)))
    shapeCasts_S8x256x4096_S8x256x64x64

/-- The line after the region reshapes what the region left. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
        = regionProduct m c from (Pipeline.withArrays_arr spec0 launch0.win.arr_inj c _ _ 2).trans (final m c)]
  unfold regionProduct
  rw [entry_left m c, V_main_arg1 m c]
  rfl

/-- Every run of the kernel ends with its result at the reshaped batched product and its arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Product

end
-- ==== Proof.lean ====
/-
  A batched matrix product computed 1024 contraction coordinates at a time equals the product computed at once.

  The kernel reshapes `x : [8, 256, 64, 64]` to `[8, 256, 4096]` and, for each of the 8 batches and each of 4 blocks of
  1024 output columns, walks the 4096 contraction coordinates in 4 stretches of 1024: an accumulator is cleared at the
  first stretch, every stretch adds the product of a `[256, 1024]` block of the reshaped `x` with a `[1024, 1024]`
  block of `interp_mat_t`, and after the last stretch the accumulator is written out as a `[256, 1024]` block of the
  result, which is finally reshaped to `[8, 256, 64, 64]`. The reference reshapes `x` the same way, contracts all 4096
  coordinates at once, and reshapes back.

  With exact arithmetic on the extended reals (narrowing the operands to bf16 is then the identity) entry `(g, r, c)` of
  the kernel's product is `0 + (S₀ + S₁ + S₂ + S₃)` grouped from the left, `Sⱼ` the sum of the products
  `x2 (g, r, k) * w (g, k, c)` over `1024 j ≤ k < 1024 (j + 1)`, and the reference's is the sum over all `k < 4096`.
  These are the same sum regrouped; addition of extended reals is commutative and associative with unit `0`, so they
  are equal for all inputs, finite or not. Both programs apply the same two reshapes around it.

  The parts: `BlockedSum` (the regrouping), `ReferenceProduct` (the reference's contraction is the product),
  `AccumulatorPieces` and `StretchPayload` (one step of the body), `Blocks` (which entries a point's blocks hold),
  `Accumulation` (the accumulator after each point, by induction), `KernelProduct` (the blocks written out tile the
  product; the reshapes around the region).
-/
import proofs.«161428_j22574348108404_1_alg».proof.Defs
import proofs.«161428_j22574348108404_1_alg».proof.Proof.Gen.Kernel
import proofs.«161428_j22574348108404_1_alg».proof.Proof.Gen.Kernel.Skeleton
import proofs.«161428_j22574348108404_1_alg».proof.Proof.Gen.Kernel.Launch
import proofs.«161428_j22574348108404_1_alg».proof.Proof.Gen.Kernel.Points
import proofs.«161428_j22574348108404_1_alg».proof.Proof.Gen.Kernel.Frame
import proofs.«161428_j22574348108404_1_alg».proof.Proof.Gen.KernelIdeal
import proofs.«161428_j22574348108404_1_alg».proof.Proof.Gen.KernelIdeal.Skeleton
import proofs.«161428_j22574348108404_1_alg».proof.Proof.Gen.KernelIdeal.Launch
import proofs.«161428_j22574348108404_1_alg».proof.Proof.Gen.KernelIdeal.Points
import proofs.«161428_j22574348108404_1_alg».proof.Proof.Gen.KernelIdeal.Frame
import proofs.«161428_j22574348108404_1_alg».proof.Proof.Gen.ReferenceIdeal
import proofs.«161428_j22574348108404_1_alg».proof.Proof.Gen.ReferenceIdeal.Run
import proofs.«161428_j22574348108404_1_alg».proof.Proof.Gen.ReferenceIdeal.Read
import proofs.«161428_j22574348108404_1_alg».proof.Proof.Gen.Pre_finite_inputs
import proofs.«161428_j22574348108404_1_alg».proof.Proof.ReferenceProduct
import proofs.«161428_j22574348108404_1_alg».proof.Proof.KernelProduct
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it at the ideal values. -/
theorem preserves : Cert.preserves_Kernel_KernelIdeal := trivial

/-- From arguments that agree, the kernel ends at the reshaped batched product of its arguments and the reference at the
    reshaped batched product of its own: the same array. -/
theorem algebraic : Cert.algebraic_KernelIdeal_ReferenceIdeal := by
  intro m ρ m' ρ' _ hagree
  refine ⟨fun c => Cert.KernelIdeal.Product.result m c, Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Product.result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
